-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1200000 : Shape := ⟨1, ![1200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1200000 : S_.BroadcastsInDim S1200000 (![] : Fin 0 → Fin S1200000.rank)
  reducesTo_S1200000_S_d0 : S1200000.ReducesTo [0] S_

variable [Facts]

def fn {F : FTy → Type} [FloatOps F] (main_arg0 : FVec F S100000x128 .f32) (main_arg1 : FVec F S1200000 .f32) (main_arg2 : IVec S1200000 32) (main_arg3 : IVec S1200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1200000 .f32 := Host.absf main_arg1
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  main_v8
-- ==== Kernel.lean ====
abbrev S100000x128 : Shape := ⟨2, ![100000, 128]⟩
abbrev S1200000 : Shape := ⟨1, ![1200000]⟩
abbrev S200000x128 : Shape := ⟨2, ![200000, 128]⟩
abbrev S_ : Shape := ⟨0, ![]⟩
abbrev S200000x1 : Shape := ⟨2, ![200000, 1]⟩
abbrev S200000x129 : Shape := ⟨2, ![200000, 129]⟩
abbrev S1200000x1 : Shape := ⟨2, ![1200000, 1]⟩
abbrev S1200000x129 : Shape := ⟨2, ![1200000, 129]⟩
abbrev S400000x129 : Shape := ⟨2, ![400000, 129]⟩
abbrev S100000x129 : Shape := ⟨2, ![100000, 129]⟩
abbrev S2000x128 : Shape := ⟨2, ![2000, 128]⟩
abbrev S2000x129 : Shape := ⟨2, ![2000, 129]⟩
abbrev S2000x1 : Shape := ⟨2, ![2000, 1]⟩
abbrev S2000 : Shape := ⟨1, ![2000]⟩

abbrev nBuf : Space → Nat
  | .hbm => 43
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S1200000, .f32⟩
  | .hbm, ⟨2, _⟩ => ⟨S1200000, .i32⟩
  | .hbm, ⟨3, _⟩ => ⟨S1200000, .i32⟩
  | .hbm, ⟨4, _⟩ => ⟨S200000x128, .f32⟩
  | .hbm, ⟨5, _⟩ => ⟨S_, .f32⟩
  | .hbm, ⟨6, _⟩ => ⟨S200000x1, .f32⟩
  | .hbm, ⟨7, _⟩ => ⟨S200000x129, .f32⟩
  | .hbm, ⟨8, _⟩ => ⟨S_, .i32⟩
  | .hbm, ⟨9, _⟩ => ⟨S1200000, .i32⟩
  | .hbm, ⟨10, _⟩ => ⟨S1200000, .i1⟩
  | .hbm, ⟨11, _⟩ => ⟨S_, .i32⟩
  | .hbm, ⟨12, _⟩ => ⟨S1200000, .i32⟩
  | .hbm, ⟨13, _⟩ => ⟨S1200000, .i32⟩
  | .hbm, ⟨14, _⟩ => ⟨S1200000, .i32⟩
  | .hbm, ⟨15, _⟩ => ⟨S1200000x1, .i32⟩
  | .hbm, ⟨16, _⟩ => ⟨S1200000x129, .f32⟩
  | .hbm, ⟨17, _⟩ => ⟨S1200000x1, .f32⟩
  | .hbm, ⟨18, _⟩ => ⟨S1200000x129, .f32⟩
  | .hbm, ⟨19, _⟩ => ⟨S1200000x129, .f32⟩
  | .hbm, ⟨20, _⟩ => ⟨S_, .f32⟩
  | .hbm, ⟨21, _⟩ => ⟨S400000x129, .f32⟩
  | .hbm, ⟨22, _⟩ => ⟨S1200000x1, .i32⟩
  | .hbm, ⟨23, _⟩ => ⟨S400000x129, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000x129, .f32⟩
  | .hbm, ⟨33, _⟩ => ⟨S1200000x1, .f32⟩
  | .hbm, ⟨34, _⟩ => ⟨S1200000x129, .f32⟩
  | .hbm, ⟨35, _⟩ => ⟨S1200000x129, .f32⟩
  | .hbm, ⟨36, _⟩ => ⟨S_, .f32⟩
  | .hbm, ⟨37, _⟩ => ⟨S200000x129, .f32⟩
  | .hbm, ⟨38, _⟩ => ⟨S1200000x1, .i32⟩
  | .hbm, ⟨39, _⟩ => ⟨S200000x129, .f32⟩
  | .hbm, ⟨40, _⟩ => ⟨S100000x129, .f32⟩
  | .hbm, ⟨41, _⟩ => ⟨S100000x129, .f32⟩
  | .hbm, ⟨42, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x129, .f32⟩
  | .local _ .vmem, ⟨3, _⟩ => ⟨S2000x129, .f32⟩
  | .local _ .vmem, ⟨4, _⟩ => ⟨S2000x129, .f32⟩
  | .local _ .vmem, ⟨5, _⟩ => ⟨S2000x129, .f32⟩
  | .local _ .vmem, ⟨6, _⟩ => ⟨S2000x128, .f32⟩
  | .local _ .vmem, ⟨7, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x129 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x129 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S100000x128_S100000x128_S200000x128_d0 : Shape.Concatenates [S100000x128, S100000x128] S200000x128 0
  bcast_S_S200000x1 : S_.BroadcastsInDim S200000x1 (![] : Fin 0 → Fin S200000x1.rank)
  concatenates_S200000x128_S200000x1_S200000x129_d1 : Shape.Concatenates [S200000x128, S200000x1] S200000x129 1
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x129_0_1 : S1200000x1.BroadcastsInDim S1200000x129 (![0, 1] : Fin 2 → Fin S1200000x129.rank)
  bcast_S_S400000x129 : S_.BroadcastsInDim S400000x129 (![] : Fin 0 → Fin S400000x129.rank)
  bcast_S_S200000x129 : S_.BroadcastsInDim S200000x129 (![] : Fin 0 → Fin S200000x129.rank)
  slices_S200000x129_S100000x129_0_0 : S200000x129.Slices ![0, 0] S100000x129
  slices_S200000x129_S100000x129_100000_0 : S200000x129.Slices ![100000, 0] S100000x129
  inb_S2000x129_S2000x129_0_0 : ∀ a, (![0, 0] : Fin 2 → Nat) a + S2000x129.size a ≤ S2000x129.size a
  h_S2000x129 : 0 < S2000x129.numel
  shapeCasts_S2000x129_S2000x129 : S2000x129.ShapeCasts S2000x129
  slices_S2000x129_o0_0_S2000x128 : S2000x129.Slices ![0, 0] S2000x128
  slices_S2000x129_o0_128_S2000x1 : S2000x129.Slices ![0, 128] S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  reduces_S2000x128_S2000 : S2000x128.Reduces [1] S2000
  shapeCasts_S2000_S2000x1 : S2000.ShapeCasts S2000x1
  gather_S200000x129_S1200000x1_S1200000x129_1_0_n_n_0_1_1129_wf : GatherDims.WF S200000x129 S1200000x1 S1200000x129 [1] [0] [] [0] [] 1 ![1, 129]
  scatter_S400000x129_S1200000x1_S1200000x129_1_0_0_1_wf : ScatterDims.WF S400000x129 S1200000x1 S1200000x129 [1] [0] [0] 1
  gather_S400000x129_S1200000x1_S1200000x129_1_0_n_n_0_1_1129_wf : GatherDims.WF S400000x129 S1200000x1 S1200000x129 [1] [0] [] [0] [] 1 ![1, 129]
  scatter_S200000x129_S1200000x1_S1200000x129_1_0_0_1_wf : ScatterDims.WF S200000x129 S1200000x1 S1200000x129 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x129.size a ≤ S100000x129.size a
  hwx0_1 : ∀ i : grid0.Coords, EltTy.bits .f32 = 32 ∨ (Rect.block (s := S100000x129) S2000x129.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x129.size a ≤ S100000x129.size a
  hwx0_2 : ∀ i : grid0.Coords, EltTy.bits .f32 = 32 ∨ (Rect.block (s := S100000x129) S2000x129.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)

variable [Facts₀]

def gather_S200000x129_S1200000x1_S1200000x129_1_0_n_n_0_1_1129 : GatherDims S200000x129 S1200000x1 S1200000x129 where
  offsetDims := [1]
  collapsedSliceDims := [0]
  operandBatchingDims := []
  startIndicesBatchingDims := []
  startIndexMap := [0]
  indexVectorDim := 1
  sliceSizes := ![1, 129]
  wf := gather_S200000x129_S1200000x1_S1200000x129_1_0_n_n_0_1_1129_wf
def scatter_S400000x129_S1200000x1_S1200000x129_1_0_0_1 : ScatterDims S400000x129 S1200000x1 S1200000x129 where
  updateWindowDims := [1]
  insertedWindowDims := [0]
  scatterDimsToOperandDims := [0]
  indexVectorDim := 1
  wf := scatter_S400000x129_S1200000x1_S1200000x129_1_0_0_1_wf
def gather_S400000x129_S1200000x1_S1200000x129_1_0_n_n_0_1_1129 : GatherDims S400000x129 S1200000x1 S1200000x129 where
  offsetDims := [1]
  collapsedSliceDims := [0]
  operandBatchingDims := []
  startIndicesBatchingDims := []
  startIndexMap := [0]
  indexVectorDim := 1
  sliceSizes := ![1, 129]
  wf := gather_S400000x129_S1200000x1_S1200000x129_1_0_n_n_0_1_1129_wf
def scatter_S200000x129_S1200000x1_S1200000x129_1_0_0_1 : ScatterDims S200000x129 S1200000x1 S1200000x129 where
  updateWindowDims := [1]
  insertedWindowDims := [0]
  scatterDimsToOperandDims := [0]
  indexVectorDim := 1
  wf := scatter_S200000x129_S1200000x1_S1200000x129_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S2000x129.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x129.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1200000 : Shape := ⟨1, ![1200000]⟩
abbrev S200000x128 : Shape := ⟨2, ![200000, 128]⟩
abbrev S_ : Shape := ⟨0, ![]⟩
abbrev S200000x1 : Shape := ⟨2, ![200000, 1]⟩
abbrev S200000x129 : Shape := ⟨2, ![200000, 129]⟩
abbrev S1200000x1 : Shape := ⟨2, ![1200000, 1]⟩
abbrev S1200000x129 : Shape := ⟨2, ![1200000, 129]⟩
abbrev S400000x129 : Shape := ⟨2, ![400000, 129]⟩
abbrev S100000x129 : Shape := ⟨2, ![100000, 129]⟩
abbrev S100000x1 : Shape := ⟨2, ![100000, 1]⟩
abbrev S100000 : Shape := ⟨1, ![100000]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1200000, .f32⟩
  | .hbm, ⟨2, _⟩ => ⟨S1200000, .i32⟩
  | .hbm, ⟨3, _⟩ => ⟨S1200000, .i32⟩
  | .hbm, ⟨4, _⟩ => ⟨S200000x128, .f32⟩
  | .hbm, ⟨5, _⟩ => ⟨S_, .f32⟩
  | .hbm, ⟨6, _⟩ => ⟨S200000x1, .f32⟩
  | .hbm, ⟨7, _⟩ => ⟨S200000x129, .f32⟩
  | .hbm, ⟨8, _⟩ => ⟨S_, .i32⟩
  | .hbm, ⟨9, _⟩ => ⟨S1200000, .i32⟩
  | .hbm, ⟨10, _⟩ => ⟨S1200000, .i1⟩
  | .hbm, ⟨11, _⟩ => ⟨S_, .i32⟩
  | .hbm, ⟨12, _⟩ => ⟨S1200000, .i32⟩
  | .hbm, ⟨13, _⟩ => ⟨S1200000, .i32⟩
  | .hbm, ⟨14, _⟩ => ⟨S1200000, .i32⟩
  | .hbm, ⟨15, _⟩ => ⟨S1200000x1, .i32⟩
  | .hbm, ⟨16, _⟩ => ⟨S1200000x129, .f32⟩
  | .hbm, ⟨17, _⟩ => ⟨S1200000x1, .f32⟩
  | .hbm, ⟨18, _⟩ => ⟨S1200000x129, .f32⟩
  | .hbm, ⟨19, _⟩ => ⟨S1200000x129, .f32⟩
  | .hbm, ⟨20, _⟩ => ⟨S_, .f32⟩
  | .hbm, ⟨21, _⟩ => ⟨S400000x129, .f32⟩
  | .hbm, ⟨22, _⟩ => ⟨S1200000x1, .i32⟩
  | .hbm, ⟨23, _⟩ => ⟨S400000x129, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000x129, .f32⟩
  | .hbm, ⟨33, _⟩ => ⟨S1200000x1, .f32⟩
  | .hbm, ⟨34, _⟩ => ⟨S1200000x129, .f32⟩
  | .hbm, ⟨35, _⟩ => ⟨S1200000x129, .f32⟩
  | .hbm, ⟨36, _⟩ => ⟨S_, .f32⟩
  | .hbm, ⟨37, _⟩ => ⟨S200000x129, .f32⟩
  | .hbm, ⟨38, _⟩ => ⟨S1200000x1, .i32⟩
  | .hbm, ⟨39, _⟩ => ⟨S200000x129, .f32⟩
  | .hbm, ⟨40, _⟩ => ⟨S100000x129, .f32⟩
  | .hbm, ⟨41, _⟩ => ⟨S100000x129, .f32⟩
  | .hbm, ⟨42, _⟩ => ⟨S100000x129, .f32⟩
  | .hbm, ⟨43, _⟩ => ⟨S100000x128, .f32⟩
  | .hbm, ⟨44, _⟩ => ⟨S100000x1, .f32⟩
  | .hbm, ⟨45, _⟩ => ⟨S_, .f32⟩
  | .hbm, ⟨46, _⟩ => ⟨S100000x1, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000, .f32⟩
  | .hbm, ⟨54, _⟩ => ⟨S100000x1, .f32⟩
  | .hbm, ⟨55, _⟩ => ⟨S_, .f32⟩
  | .hbm, ⟨56, _⟩ => ⟨S100000x1, .f32⟩
  | .hbm, ⟨57, _⟩ => ⟨S100000x1, .f32⟩
  | .hbm, ⟨58, _⟩ => ⟨S_, .f32⟩
  | .hbm, ⟨59, _⟩ => ⟨S100000x1, .f32⟩
  | .hbm, ⟨60, _⟩ => ⟨S100000x1, .f32⟩
  | .hbm, ⟨61, _⟩ => ⟨S100000x1, .f32⟩
  | .hbm, ⟨62, _⟩ => ⟨S100000x128, .f32⟩
  | .hbm, ⟨63, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]

class Facts₀ : Prop where
  concatenates_S100000x128_S100000x128_S200000x128_d0 : Shape.Concatenates [S100000x128, S100000x128] S200000x128 0
  bcast_S_S200000x1 : S_.BroadcastsInDim S200000x1 (![] : Fin 0 → Fin S200000x1.rank)
  concatenates_S200000x128_S200000x1_S200000x129_d1 : Shape.Concatenates [S200000x128, S200000x1] S200000x129 1
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x129_0_1 : S1200000x1.BroadcastsInDim S1200000x129 (![0, 1] : Fin 2 → Fin S1200000x129.rank)
  bcast_S_S400000x129 : S_.BroadcastsInDim S400000x129 (![] : Fin 0 → Fin S400000x129.rank)
  bcast_S_S200000x129 : S_.BroadcastsInDim S200000x129 (![] : Fin 0 → Fin S200000x129.rank)
  slices_S200000x129_S100000x129_0_0 : S200000x129.Slices ![0, 0] S100000x129
  slices_S200000x129_S100000x129_100000_0 : S200000x129.Slices ![100000, 0] S100000x129
  slices_S100000x129_S100000x128_0_0 : S100000x129.Slices ![0, 0] S100000x128
  slices_S100000x129_S100000x1_0_128 : S100000x129.Slices ![0, 128] S100000x1
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  gather_S200000x129_S1200000x1_S1200000x129_1_0_n_n_0_1_1129_wf : GatherDims.WF S200000x129 S1200000x1 S1200000x129 [1] [0] [] [0] [] 1 ![1, 129]
  scatter_S400000x129_S1200000x1_S1200000x129_1_0_0_1_wf : ScatterDims.WF S400000x129 S1200000x1 S1200000x129 [1] [0] [0] 1
  gather_S400000x129_S1200000x1_S1200000x129_1_0_n_n_0_1_1129_wf : GatherDims.WF S400000x129 S1200000x1 S1200000x129 [1] [0] [] [0] [] 1 ![1, 129]
  scatter_S200000x129_S1200000x1_S1200000x129_1_0_0_1_wf : ScatterDims.WF S200000x129 S1200000x1 S1200000x129 [1] [0] [0] 1

variable [Facts₀]

def gather_S200000x129_S1200000x1_S1200000x129_1_0_n_n_0_1_1129 : GatherDims S200000x129 S1200000x1 S1200000x129 where
  offsetDims := [1]
  collapsedSliceDims := [0]
  operandBatchingDims := []
  startIndicesBatchingDims := []
  startIndexMap := [0]
  indexVectorDim := 1
  sliceSizes := ![1, 129]
  wf := gather_S200000x129_S1200000x1_S1200000x129_1_0_n_n_0_1_1129_wf
def scatter_S400000x129_S1200000x1_S1200000x129_1_0_0_1 : ScatterDims S400000x129 S1200000x1 S1200000x129 where
  updateWindowDims := [1]
  insertedWindowDims := [0]
  scatterDimsToOperandDims := [0]
  indexVectorDim := 1
  wf := scatter_S400000x129_S1200000x1_S1200000x129_1_0_0_1_wf
def gather_S400000x129_S1200000x1_S1200000x129_1_0_n_n_0_1_1129 : GatherDims S400000x129 S1200000x1 S1200000x129 where
  offsetDims := [1]
  collapsedSliceDims := [0]
  operandBatchingDims := []
  startIndicesBatchingDims := []
  startIndexMap := [0]
  indexVectorDim := 1
  sliceSizes := ![1, 129]
  wf := gather_S400000x129_S1200000x1_S1200000x129_1_0_n_n_0_1_1129_wf
def scatter_S200000x129_S1200000x1_S1200000x129_1_0_0_1 : ScatterDims S200000x129 S1200000x1 S1200000x129 where
  updateWindowDims := [1]
  insertedWindowDims := [0]
  scatterDimsToOperandDims := [0]
  indexVectorDim := 1
  wf := scatter_S200000x129_S1200000x1_S1200000x129_1_0_0_1_wf

class Facts : Prop extends Facts₀ where

variable [Facts]
-- ==== Proof.RowNorm.lean ====
/-
  The row-wise normalisation both programs compute, as one function on the extended reals.

  Take a row `x` of 128 entries and two rows `a`, `b` of 129 entries. Their sum `s = a + b` carries 128 features and,
  in its last place, a degree. The row's mean is `s k / max (s 128) 2`, the centred row is `v k = x k - s k / max (s 128) 2`,
  and the result is `v k * rsqrt ((∑ j, v j * v j) / 128 + ε)`: the centred row scaled by the reciprocal square root of its
  mean square plus ε. Every result entry depends on ONE row of each array, and on nothing else: that is the whole content
  of tiling the rows into blocks, and `rowNormOf_rows` states it.
-/
import Idealize.ShloMosaic.PureOps.Ideal
import Idealize.ShloMosaic.Lib.ValueIdx

noncomputable section

namespace Cert.RowNorm

open Idealize.ShloMosaic Idealize.ShloMosaic.ValueIdx

/-- Feature column `k` among the 129 columns of the summed rows. -/
abbrev feat (k : Fin 128) : Fin 129 := ⟨k.val, Nat.lt_succ_of_lt k.isLt⟩

/-- The degree column: the last of the 129. -/
abbrev deg : Fin 129 := ⟨128, Nat.lt_succ_self 128⟩

/-- The centred row: `x k - (a k + b k) / max (a 128 + b 128) 2`. The literal is the word of `2.0`. -/
def centred (x : Fin 128 → EReal) (a b : Fin 129 → EReal) (k : Fin 128) : EReal :=
  x k - Ideal.div (a (feat k) + b (feat k)) (max (a deg + b deg) (Ideal.ofBits .f32 0x40000000#32))

/-- The normalised row: the centred row times `rsqrt (mean square + ε)`. The literals are the words of `128.0` and of
    the single-precision `1e-6`. -/
def normRow (x : Fin 128 → EReal) (a b : Fin 129 → EReal) (k : Fin 128) : EReal :=
  centred x a b k * Ideal.rsqrt (Ideal.div (∑ j : Fin 128, centred x a b j * centred x a b j) (Ideal.ofBits .f32 0x43000000#32)
    + Ideal.ofBits .f32 0x358637BD#32)

/-- The normalisation of an array of `n` rows: entry `(r, k)` is the normalised row `r` at `k`. -/
def rowNormOf {n : Nat} (x : (⟨2, ![n, 128]⟩ : Shape).Idx → EReal) (a b : (⟨2, ![n, 129]⟩ : Shape).Idx → EReal) :
    (⟨2, ![n, 128]⟩ : Shape).Idx → EReal := fun i =>
  normRow (fun k => x (ix2 (i 0) k)) (fun j => a (ix2 (i 0) j)) (fun j => b (ix2 (i 0) j)) (i 1)

theorem rowNormOf_apply {n : Nat} (x : (⟨2, ![n, 128]⟩ : Shape).Idx → EReal) (a b : (⟨2, ![n, 129]⟩ : Shape).Idx → EReal)
    (r : Fin n) (k : Fin 128) :
    rowNormOf x a b (ix2 r k) = normRow (fun k => x (ix2 r k)) (fun j => a (ix2 r j)) (fun j => b (ix2 r j)) k := rfl

/-- ROW LOCALITY. If row `r` of three arrays is row `R` of three others, the two normalisations agree along that row —
    whatever the other rows hold, and whatever the two row counts are. -/
theorem rowNormOf_rows {n n' : Nat} (x : (⟨2, ![n, 128]⟩ : Shape).Idx → EReal) (a b : (⟨2, ![n, 129]⟩ : Shape).Idx → EReal)
    (X : (⟨2, ![n', 128]⟩ : Shape).Idx → EReal) (A B : (⟨2, ![n', 129]⟩ : Shape).Idx → EReal) (r : Fin n) (R : Fin n')
    (hx : ∀ k : Fin 128, x (ix2 r k) = X (ix2 R k)) (ha : ∀ j : Fin 129, a (ix2 r j) = A (ix2 R j))
    (hb : ∀ j : Fin 129, b (ix2 r j) = B (ix2 R j)) (k : Fin 128) :
    rowNormOf x a b (ix2 r k) = rowNormOf X A B (ix2 R k) := by
  rw [rowNormOf_apply, rowNormOf_apply, funext hx, funext ha, funext hb]

end Cert.RowNorm

end
-- ==== Proof.BodyRows.lean ====
/-
  What the kernel body leaves in its output block is the row-wise normalisation of its three input blocks.

  The body works on a block of 2000 rows: `x` of 128 columns and `a`, `b` of 129. It adds `a` and `b`, slices the 128
  feature columns and the degree column out of the sum, divides the features by `max degree 2` (the degree column
  broadcast along each row), subtracts that mean from `x`, sums the squares of the centred values along each row, divides
  by 128, adds ε, and multiplies the centred values by the reciprocal square root, broadcast along the row. Read at
  an entry `(r, k)` this is the normalised row `r` at `k` — the same function of one row that the whole arrays' result
  is. The two re-layings that matter are read by the library's slice and broadcast lemmas; the lane sum is the sum
  over the 128 columns of the row.
-/
import proofs.«174831_j15410342658642_1_alg».proof.Proof.Gen.KernelIdeal.Value
import proofs.«174831_j15410342658642_1_alg».proof.Proof.RowNorm
import Idealize.ShloMosaic.Lib.Pipeline.Value
import Idealize.ShloMosaic.Lib.ValueIdx
import Idealize.ShloMosaic.PureOps.Ideal.Laws

noncomputable section

namespace Cert.KernelIdeal.BodyRows

open Cert.KernelIdeal Cert.KernelIdeal.Gen Idealize.ShloMosaic Idealize.ShloMosaic.ValueIdx Cert.RowNorm

variable (P0 : Vec Ideal S2000x128 .f32) (P1 P2 : Vec Ideal S2000x129 .f32)

/-- The block sum `a + b`, as the body forms it. -/
abbrev ssum : FVec Ideal S2000x129 .f32 :=
  addf (shapeCast S2000x129 P1 shapeCasts_S2000x129_S2000x129) (shapeCast S2000x129 P2 shapeCasts_S2000x129_S2000x129)

/-- The centred block `x - features / max degree 2`, as the body forms it. -/
abbrev cvec : FVec Ideal S2000x128 .f32 :=
  subf P0 (divf (extractStridedSlice S2000x128 ![0, 0] (ssum P1 P2) slices_S2000x129_o0_0_S2000x128)
    (broadcastTo S2000x128 (maximumf (extractStridedSlice S2000x1 ![0, 128] (ssum P1 P2) slices_S2000x129_o0_128_S2000x1)
      (broadcast S2000x1 (Scalar.ofBits .f32 0x40000000#32))) broadcasts_S2000x1_S2000x128))

/-- The block sum at an entry. -/
theorem ssum_apply (i : S2000x129.Idx) : ssum P1 P2 i = P1 i + P2 i := by
  unfold ssum
  rw [shapeCast_self P1, shapeCast_self P2]; rfl

/-- The feature slice of the sum at `(r, k)` is the sum at `(r, k)`. -/
theorem feat_apply (r : Fin 2000) (k : Fin 128) :
    extractStridedSlice S2000x128 ![0, 0] (ssum P1 P2) slices_S2000x129_o0_0_S2000x128 (ix2 r k)
      = P1 (ix2 r (feat k)) + P2 (ix2 r (feat k)) :=
  (extractStridedSlice_apply ![0, 0] (ssum P1 P2) slices_S2000x129_o0_0_S2000x128 (ix2 r k) (ix2 r (feat k))
    (fun a => match a with
      | ⟨0, _⟩ => by show r.val = 0 + r.val; omega
      | ⟨1, _⟩ => by show k.val = 0 + k.val; omega)).trans (ssum_apply P1 P2 _)

/-- The degree slice of the sum at `(r, 0)` is the sum at the degree column of row `r`. -/
theorem deg_apply (r : Fin 2000) :
    extractStridedSlice S2000x1 ![0, 128] (ssum P1 P2) slices_S2000x129_o0_128_S2000x1 (ix2 r (0 : Fin 1))
      = P1 (ix2 r deg) + P2 (ix2 r deg) :=
  (extractStridedSlice_apply ![0, 128] (ssum P1 P2) slices_S2000x129_o0_128_S2000x1 (ix2 r (0 : Fin 1)) (ix2 r deg)
    (fun a => match a with
      | ⟨0, _⟩ => by show r.val = 0 + r.val; omega
      | ⟨1, _⟩ => by show 128 = 128 + 0; omega)).trans (ssum_apply P1 P2 _)

/-- The divisor, broadcast along the row: at `(r, k)` it is `max (degree of row r) 2`, whatever `k`. -/
theorem divisor_apply (r : Fin 2000) (k : Fin 128) :
    broadcastTo S2000x128 (maximumf (extractStridedSlice S2000x1 ![0, 128] (ssum P1 P2) slices_S2000x129_o0_128_S2000x1)
      (broadcast S2000x1 (Scalar.ofBits .f32 0x40000000#32))) broadcasts_S2000x1_S2000x128 (ix2 r k)
      = max (P1 (ix2 r deg) + P2 (ix2 r deg)) (Ideal.ofBits .f32 0x40000000#32) := by
  refine (broadcastTo_apply _ broadcasts_S2000x1_S2000x128 (ix2 r k) (ix2 r (0 : Fin 1))
    (fun a => match a with
      | ⟨0, _⟩ => by show r.val = (if (2000 : Nat) = 1 then 0 else r.val); rw [if_neg (by decide)]
      | ⟨1, _⟩ => by show 0 = (if (1 : Nat) = 1 then 0 else k.val); rw [if_pos rfl])).trans ?_
  show max (extractStridedSlice S2000x1 ![0, 128] (ssum P1 P2) slices_S2000x129_o0_128_S2000x1 (ix2 r (0 : Fin 1)))
    (Ideal.ofBits .f32 0x40000000#32) = _
  rw [deg_apply]

/-- The centred block at `(r, k)` is the centred row `r` at `k`. -/
theorem cvec_apply (r : Fin 2000) (k : Fin 128) :
    cvec P0 P1 P2 (ix2 r k) = centred (fun k => P0 (ix2 r k)) (fun j => P1 (ix2 r j)) (fun j => P2 (ix2 r j)) k := by
  show P0 (ix2 r k) - Ideal.div
      (extractStridedSlice S2000x128 ![0, 0] (ssum P1 P2) slices_S2000x129_o0_0_S2000x128 (ix2 r k))
      (broadcastTo S2000x128 (maximumf (extractStridedSlice S2000x1 ![0, 128] (ssum P1 P2) slices_S2000x129_o0_128_S2000x1)
        (broadcast S2000x1 (Scalar.ofBits .f32 0x40000000#32))) broadcasts_S2000x1_S2000x128 (ix2 r k)) = _
  rw [feat_apply, divisor_apply]
  rfl

/-- The lane sum of the squared centred block at row `r`: the sum over the row's 128 columns of the squares of the
    centred row. -/
theorem squares_apply (r : Fin 2000) :
    multiReduction .add [1] S2000 (mulf (cvec P0 P1 P2) (cvec P0 P1 P2)) 0x00000000#32 reduces_S2000x128_S2000 (.inl rfl) rfl (ix1 r)
      = ∑ j : Fin 128, centred (fun k => P0 (ix2 r k)) (fun j => P1 (ix2 r j)) (fun j => P2 (ix2 r j)) j
          * centred (fun k => P0 (ix2 r k)) (fun j => P1 (ix2 r j)) (fun j => P2 (ix2 r j)) j := by
  refine (Ideal.multiReduction_add_single (mulf (cvec P0 P1 P2) (cvec P0 P1 P2)) 0x00000000#32 reduces_S2000x128_S2000
    (.inl rfl) rfl (ix1 r)).trans ?_
  refine Finset.sum_congr rfl fun (j : Fin 128) _ => ?_
  have hl : reduces_S2000x128_S2000.lift (ix1 r) j = ix2 r j :=
    funext fun a => Fin.ext (by match a with | ⟨0, _⟩ => rfl | ⟨1, _⟩ => rfl)
  rw [hl]
  show cvec P0 P1 P2 (ix2 r j) * cvec P0 P1 P2 (ix2 r j) = _
  rw [cvec_apply]

/-- THE BLOCK: what the body's store leaves, as the generated value leg reads it entry by entry, is the row-wise
    normalisation of the three input blocks. -/
theorem block_rows : Value.E3 (F := Ideal) P0 P1 P2 = rowNormOf (n := 2000) P0 P1 P2 := by
  funext y
  obtain ⟨r, k, rfl⟩ : ∃ (r : Fin 2000) (k : Fin 128), y = ix2 r k := ⟨y 0, y 1, eq_ix2 y⟩
  have i0 : Value.ix3_0 (ix2 r k) = ix2 r k :=
    funext fun a => Fin.ext (by match a with | ⟨0, _⟩ => rfl | ⟨1, _⟩ => rfl)
  have i1 : Value.ix3_1 (ix2 r k) = ix2 r (feat k) :=
    funext fun a => Fin.ext (by match a with | ⟨0, _⟩ => rfl | ⟨1, _⟩ => rfl)
  have i2 : Value.ix3_2 (ix2 r k) = ix2 r (feat k) :=
    funext fun a => Fin.ext (by match a with | ⟨0, _⟩ => rfl | ⟨1, _⟩ => rfl)
  have i3 : Value.ix3_3 (ix2 r k) = ix2 r deg :=
    funext fun a => Fin.ext (by match a with | ⟨0, _⟩ => rfl | ⟨1, _⟩ => rfl)
  have i4 : Value.ix3_4 (ix2 r k) = ix2 r deg :=
    funext fun a => Fin.ext (by match a with | ⟨0, _⟩ => rfl | ⟨1, _⟩ => rfl)
  have i5 : Value.ix3_5 (ix2 r k) = ix1 r :=
    funext fun a => Fin.ext (by match a with | ⟨0, _⟩ => rfl)
  rw [rowNormOf_apply]
  show (P0 (Value.ix3_0 (ix2 r k)) - Ideal.div (P1 (Value.ix3_1 (ix2 r k)) + P2 (Value.ix3_2 (ix2 r k)))
        (max (P1 (Value.ix3_3 (ix2 r k)) + P2 (Value.ix3_4 (ix2 r k))) (Ideal.ofBits .f32 0x40000000#32)))
      * Ideal.rsqrt (Ideal.div
          (multiReduction .add [1] S2000 (mulf (cvec P0 P1 P2) (cvec P0 P1 P2)) 0x00000000#32 reduces_S2000x128_S2000 (.inl rfl) rfl
            (Value.ix3_5 (ix2 r k)))
          (Ideal.ofBits .f32 0x43000000#32) + Ideal.ofBits .f32 0x358637BD#32) = _
  rw [i0, i1, i2, i3, i4, i5, squares_apply]
  rfl

end Cert.KernelIdeal.BodyRows

end
-- ==== Proof.Head.lean ====
/-
  Before the kernel's region, the kernel's program applies to its four arguments the very operations the reference
  starts with: the first argument stacked on itself with a column of ones appended, a gather of its rows along the second
  index list, a scatter-add into the clause rows along the first, a gather back along the first and a scatter-add into the
  literal rows along the second, and the split of the result into its upper and lower halves. So the two arrays the
  region finds as its second and third operands ARE the reference's two halves of the same arguments. The operations are
  set side by side, never evaluated.
-/
import proofs.«174831_j15410342658642_1_alg».proof.Proof.Gen.KernelIdeal.Frame
import proofs.«174831_j15410342658642_1_alg».proof.Proof.Gen.ReferenceIdeal.Read
import Idealize.ShloMosaic.Lib.StableHlo.Run

noncomputable section

namespace Cert.KernelIdeal.Head

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 2000000 in
/-- The region's second operand is the upper half. -/
theorem upper (c : Dev nD) :
    (V m c main_v29 : S100000x129.Idx → EReal)
      = Cert.ReferenceIdeal.Read.val_main_v29 (F := Ideal) (m ((c : Thread nD τ).loc main_arg0))
          (m ((c : Thread nD τ).loc main_arg1)) (m ((c : Thread nD τ).loc main_arg2)) (m ((c : Thread nD τ).loc main_arg3)) := by
  dsimp only [Gen.V, Gen.hostOps0]
  after_results_simp
  rfl

set_option maxRecDepth 8192 in
set_option maxHeartbeats 2000000 in
/-- The region's third operand is the lower half. -/
theorem lower (c : Dev nD) :
    (V m c main_v30 : S100000x129.Idx → EReal)
      = Cert.ReferenceIdeal.Read.val_main_v30 (F := Ideal) (m ((c : Thread nD τ).loc main_arg0))
          (m ((c : Thread nD τ).loc main_arg1)) (m ((c : Thread nD τ).loc main_arg2)) (m ((c : Thread nD τ).loc main_arg3)) := by
  dsimp only [Gen.V, Gen.hostOps0]
  after_results_simp
  rfl

/-- The same, for any reference that IS the second operand's buffer: only the two references are compared. -/
theorem upper_at (c : Dev nD) (b : Ref sig .tc) (hb : b = main_v29) :
    HEq (V m c b) (Cert.ReferenceIdeal.Read.val_main_v29 (F := Ideal) (m ((c : Thread nD τ).loc main_arg0))
      (m ((c : Thread nD τ).loc main_arg1)) (m ((c : Thread nD τ).loc main_arg2)) (m ((c : Thread nD τ).loc main_arg3))) := by
  subst hb; exact heq_of_eq (upper m c)

/-- The same, for any reference that IS the third operand's buffer. -/
theorem lower_at (c : Dev nD) (b : Ref sig .tc) (hb : b = main_v30) :
    HEq (V m c b) (Cert.ReferenceIdeal.Read.val_main_v30 (F := Ideal) (m ((c : Thread nD τ).loc main_arg0))
      (m ((c : Thread nD τ).loc main_arg1)) (m ((c : Thread nD τ).loc main_arg2)) (m ((c : Thread nD τ).loc main_arg3))) := by
  subst hb; exact heq_of_eq (lower m c)

/-- The first operand's buffer is the first argument, which no host operation writes. -/
theorem first_at (c : Dev nD) (b : Ref sig .tc) (hb : b = main_arg0) :
    HEq (V m c b) (m ((c : Thread nD τ).loc main_arg0)) := by
  subst hb; exact heq_of_eq (V_main_arg0 m c)

end Cert.KernelIdeal.Head

end
-- ==== Proof.Blocks.lean ====
/-
  From the blocks to the array.

  The kernel's grid has 50 points; point `t` fetches rows `2000 t … 2000 t + 1999` of its three operands (all 128,
  resp. 129, columns of them) and writes back the same rows of the result. Because an entry of the row-wise normalisation
  depends on its own row only, what point `t` writes back is exactly rows `2000 t …` of the normalisation of the three
  WHOLE operand arrays; row `r` is covered by point `r / 2000`; so the result array ends as that normalisation, whatever
  the order of the points. The operand arrays are the first argument and the two halves the host operations leave, and
  with the halves identified the kernel's run is stated over the launch arguments.
-/
import proofs.«174831_j15410342658642_1_alg».proof.Proof.Gen.KernelIdeal.Value
import proofs.«174831_j15410342658642_1_alg».proof.Proof.BodyRows
import proofs.«174831_j15410342658642_1_alg».proof.Proof.Head
import proofs.«174831_j15410342658642_1_alg».proof.Proof.RowNorm
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.RowNorm
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The output block after the body is the row-wise normalisation of the three input blocks. -/
theorem out_rows (x0 : Vec Ideal S2000x128 .f32) (x1 x2 : Vec Ideal S2000x129 .f32) :
    out0_3 x0 x1 x2 = rowNormOf (n := 2000) x0 x1 x2 := by
  funext y
  unfold out0_3
  rw [Value.canon3_eq]
  simp only [View.ld_unit_zero (S := S2000x128) zero_offsets, View.ld_unit_zero (S := S2000x129) zero_offsets]
  exact congrFun (BodyRows.block_rows x0 x1 x2) y

/-- The index maps, decided over the 50 points: every window sits at the output's row block and at column block 0, and
    the row block is below 50. -/
theorem idx_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) < 50 :=
  (by decide +kernel : ∀ t : Fin grid0.N, _)

/-- Every row block is some point's. -/
theorem idx_onto : ∀ q : Fin 50, ∃ t : Fin cfg0.N, win0_3.index t = ![q.val, 0] :=
  (by decide +kernel : ∀ q : Fin 50, ∃ t : Fin grid0.N, win0_3.index t = ![q.val, 0])

/-- The window's cut and read at one point, over two arbitrary functions: if the body leaves `g` in the output block and
    `g` is `G` read through the point's block, the point writes back block `t` of `G`. Nothing here looks inside `g` or `G`. -/
theorem cut_read_of (t : Fin cfg0.N) (o : Vec Ideal S2000x128 .f32) (G : S100000x128.Idx → EReal) (g : S2000x128.Idx → EReal)
    (hout : o = g) (hg : ∀ y : S2000x128.Idx, g y = G (((cfg0.win 3).blk t).view.emb y)) :
    (cfg0.win 3).cut (grid0.coords t) o = ((cfg0.win 3).blk t).view.read (Elt Ideal) G := by
  subst hout
  funext y
  exact hg y

/-- ONE POINT, over three ARBITRARY operand arrays `X`, `A`, `B`: the body run on their blocks at point `t` leaves, cut,
    block `t` of their normalisation. The block's row `r` is row `2000 q + r` of every operand, `q` the point's row block,
    and the normalisation is row-local. -/
theorem point_rows (t : Fin cfg0.N) (X : S100000x128.Idx → EReal) (A B : S100000x129.Idx → EReal) :
    (cfg0.win 3).cut (grid0.coords t)
        (out0_3 (((cfg0.win 0).blk t).view.read (Elt Ideal) X) (((cfg0.win 1).blk t).view.read (Elt Ideal) A)
          (((cfg0.win 2).blk t).view.read (Elt Ideal) B))
      = ((cfg0.win 3).blk t).view.read (Elt Ideal) (rowNormOf (n := 100000) X A B) := by
  obtain ⟨e00, e01, e10, e11, e20, e21, e31, e30⟩ := idx_facts t
  have hrow : ∀ r : Fin 2000, win0_3.index t (0 : Fin 2) * 2000 + r.val < 100000 := fun r => by
    have := r.isLt; omega
  refine cut_read_of t _ (rowNormOf (n := 100000) X A B) _ (out_rows _ _ _) (fun y => ?_)
  obtain ⟨r, k, rfl⟩ : ∃ (r : Fin 2000) (k : Fin 128), y = ix2 r k := ⟨y 0, y 1, eq_ix2 y⟩
  have e3 : ((cfg0.win 3).blk t).view.emb (ix2 r k)
      = ix2 (⟨win0_3.index t (0 : Fin 2) * 2000 + r.val, hrow r⟩ : Fin 100000) k := by
    funext a; apply Fin.ext
    match a with
    | ⟨0, _⟩ => show win0_3.index t (0 : Fin 2) * 2000 + 1 * r.val = win0_3.index t (0 : Fin 2) * 2000 + r.val; omega
    | ⟨1, _⟩ => show win0_3.index t (1 : Fin 2) * 128 + 1 * k.val = k.val; omega
  rw [e3]
  refine rowNormOf_rows _ _ _ X A B r ⟨win0_3.index t (0 : Fin 2) * 2000 + r.val, hrow r⟩
    (fun k => ?_) (fun j => ?_) (fun j => ?_) k
  · show X (((cfg0.win 0).blk t).view.emb (ix2 r k)) = _
    have e : ((cfg0.win 0).blk t).view.emb (ix2 r k) = ix2 (⟨win0_3.index t (0 : Fin 2) * 2000 + r.val, hrow r⟩ : Fin 100000) k := by
      funext a; apply Fin.ext
      match a with
      | ⟨0, _⟩ => show win0_0.index t (0 : Fin 2) * 2000 + 1 * r.val = win0_3.index t (0 : Fin 2) * 2000 + r.val; omega
      | ⟨1, _⟩ => show win0_0.index t (1 : Fin 2) * 128 + 1 * k.val = k.val; omega
    rw [e]
  · show A (((cfg0.win 1).blk t).view.emb (ix2 r j)) = _
    have e : ((cfg0.win 1).blk t).view.emb (ix2 r j) = ix2 (⟨win0_3.index t (0 : Fin 2) * 2000 + r.val, hrow r⟩ : Fin 100000) j := by
      funext a; apply Fin.ext
      match a with
      | ⟨0, _⟩ => show win0_1.index t (0 : Fin 2) * 2000 + 1 * r.val = win0_3.index t (0 : Fin 2) * 2000 + r.val; omega
      | ⟨1, _⟩ => show win0_1.index t (1 : Fin 2) * 129 + 1 * j.val = j.val; omega
    rw [e]
  · show B (((cfg0.win 2).blk t).view.emb (ix2 r j)) = _
    have e : ((cfg0.win 2).blk t).view.emb (ix2 r j) = ix2 (⟨win0_3.index t (0 : Fin 2) * 2000 + r.val, hrow r⟩ : Fin 100000) j := by
      funext a; apply Fin.ext
      match a with
      | ⟨0, _⟩ => show win0_2.index t (0 : Fin 2) * 2000 + 1 * r.val = win0_3.index t (0 : Fin 2) * 2000 + r.val; omega
      | ⟨1, _⟩ => show win0_2.index t (1 : Fin 2) * 129 + 1 * j.val = j.val; omega
    rw [e]

/-- WHAT POINT `t` WRITES BACK is block `t` of the normalisation of the three whole operand arrays as the region finds
    them: the one-point statement at those arrays, which are named here only, never read. -/
theorem flushed_eq (c : Dev nD) (t : Fin cfg0.N) :
    (dats m 0 c).flushed 3 t = ((cfg0.win 3).blk t).view.read (Elt Ideal)
      (rowNormOf (n := 100000) (V m c (Pipeline.arrRef spec0 (0 : Fin cfg0.W))) (V m c (Pipeline.arrRef spec0 (1 : Fin cfg0.W)))
        (V m c (Pipeline.arrRef spec0 (2 : Fin cfg0.W)))) := by
  rw [Value.flushed3]
  unfold iblk
  exact point_rows t (V m c (Pipeline.arrRef spec0 (0 : Fin cfg0.W))) (V m c (Pipeline.arrRef spec0 (1 : Fin cfg0.W)))
    (V m c (Pipeline.arrRef spec0 (2 : Fin cfg0.W)))

/-- An index of the result array is in point `t`'s block iff each coordinate is in the block's range on its axis. -/
theorem mem_blk (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v31).slice (win0_3.rect t)).set ↔ _
  rw [View.set_slice_whole, Rect.mem_set_unit]
  exact Iff.rfl

/-- Every entry of the result array is in some point's block: row `r` in point `r / 2000`'s. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-- THE ARRAY after the run: the normalisation of the three whole operand arrays as the region finds them. -/
theorem final (c : Dev nD) :
    (dats m 0 c).arrAt 3 cfg0.N = rowNormOf (n := 100000) (V m c (Pipeline.arrRef spec0 (0 : Fin cfg0.W)))
      (V m c (Pipeline.arrRef spec0 (1 : Fin cfg0.W))) (V m c (Pipeline.arrRef spec0 (2 : Fin cfg0.W))) :=
  (dats m 0 c).arrAt_eq_of_cover 3 _ (fun t _ => flushed_eq m c t) cover

/-- The same array over the launch arguments: the first operand is the first argument untouched, the other two are the
    two halves of the host operations' result. Each operand's buffer is identified by its reference alone. -/
theorem final_args (c : Dev nD) :
    (dats m 0 c).arrAt 3 cfg0.N = rowNormOf (n := 100000) (m ((c : Thread nD τ).loc main_arg0))
      (Cert.ReferenceIdeal.Read.val_main_v29 (F := Ideal) (m ((c : Thread nD τ).loc main_arg0))
        (m ((c : Thread nD τ).loc main_arg1)) (m ((c : Thread nD τ).loc main_arg2)) (m ((c : Thread nD τ).loc main_arg3)))
      (Cert.ReferenceIdeal.Read.val_main_v30 (F := Ideal) (m ((c : Thread nD τ).loc main_arg0))
        (m ((c : Thread nD τ).loc main_arg1)) (m ((c : Thread nD τ).loc main_arg2)) (m ((c : Thread nD τ).loc main_arg3))) := by
  have hX := eq_of_heq (Head.first_at m c (Pipeline.arrRef spec0 (0 : Fin cfg0.W)) rfl)
  have hA := eq_of_heq (Head.upper_at m c (Pipeline.arrRef spec0 (1 : Fin cfg0.W)) rfl)
  have hB := eq_of_heq (Head.lower_at m c (Pipeline.arrRef spec0 (2 : Fin cfg0.W)) rfl)
  rw [final, hX, hA, hB]

/-- The kernel's run: every weakly fair execution terminates with the result array at the normalisation of the launch
    arguments' first array and the two halves, the arguments unchanged. -/
theorem run : θ_run defs (onTc (τ := τ) (main (F := Ideal))) ⟨m, fun _ => 0, ρ⟩ fun r => ∀ c : Dev nD,
      r.2.mem ((c : Thread nD τ).loc main_v31) = rowNormOf (n := 100000) (m ((c : Thread nD τ).loc main_arg0))
        (Cert.ReferenceIdeal.Read.val_main_v29 (F := Ideal) (m ((c : Thread nD τ).loc main_arg0))
          (m ((c : Thread nD τ).loc main_arg1)) (m ((c : Thread nD τ).loc main_arg2)) (m ((c : Thread nD τ).loc main_arg3)))
        (Cert.ReferenceIdeal.Read.val_main_v30 (F := Ideal) (m ((c : Thread nD τ).loc main_arg0))
          (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_args m c), (h c).2⟩) (Value.run_blocks m ρ)

end Cert.KernelIdeal.Blocks

end
-- ==== Proof.RefRows.lean ====
/-
  The reference, read at an index, is the row-wise normalisation of its first argument and of the two halves of the
  scattered literal array.

  The reference's first operations gather, scatter-add, gather and scatter-add again along the adjacency lists and split
  the result into its two halves; those two halves are carried here as two arrays `A` and `B`, never opened. What
  follows them is read one operation at a time: the halves are added, the 128 feature columns and the degree column are
  sliced out, the features are divided by `max degree 2`, subtracted from the first argument, squared, summed along the
  row from the initial value zero, divided by 128, increased by ε, and the centred row is multiplied by the reciprocal
  square root. The only arithmetic fact used is `0 + s = s` for the sum's initial value.
-/
import proofs.«174831_j15410342658642_1_alg».proof.Proof.Gen.ReferenceIdeal.Read
import proofs.«174831_j15410342658642_1_alg».proof.Proof.RowNorm

noncomputable section

namespace Cert.ReferenceIdeal.RefRows

open Cert.ReferenceIdeal Cert.ReferenceIdeal.Read Idealize.ShloMosaic Idealize.ShloMosaic.ValueIdx Cert.RowNorm

variable (x0 : (⟨S100000x128, .f32⟩ : BufTy).Contents (Elt Ideal)) (x1 : (⟨S1200000, .f32⟩ : BufTy).Contents (Elt Ideal))
  (x2 x3 : (⟨S1200000, .i32⟩ : BufTy).Contents (Elt Ideal))

/-- A feature entry `(r, k)` of the sliced sum is entry `(r, k)` of the 129-column sum. -/
theorem idx_feat (r : Fin 100000) (k : Fin 128) : idx_main_v32 (ix2 r k) = ix2 r (feat k) :=
  funext fun a => Fin.ext (by match a with | ⟨0, _⟩ => rfl | ⟨1, _⟩ => rfl)

/-- The divisor broadcast along row `r` is read at the degree column of that row, whatever the column. -/
theorem idx_deg (r : Fin 100000) (k : Fin 128) : idx_main_v33 (idx_main_v36 (ix2 r k)) = ix2 r deg :=
  funext fun a => Fin.ext (by match a with | ⟨0, _⟩ => rfl | ⟨1, _⟩ => rfl)

/-- The row's scale, broadcast along row `r`, is read from the row sum's term `j` at entry `(r, j)`. -/
theorem idx_sum (r : Fin 100000) (k j : Fin 128) : idx_main_v40 (idx_main_v41 (idx_main_v47 (ix2 r k))) j = ix2 r j :=
  funext fun a => Fin.ext (by match a with | ⟨0, _⟩ => rfl | ⟨1, _⟩ => rfl)

section Halves

/- The two halves as arrays `A`, `B`: from here on nothing depends on how they were computed. -/
variable (A B : (⟨S100000x129, .f32⟩ : BufTy).Contents (Elt Ideal))
  (hA : val_main_v29 (F := Ideal) x0 x1 x2 x3 = A) (hB : val_main_v30 (F := Ideal) x0 x1 x2 x3 = B)

include hA hB

/-- The summed halves at an entry. -/
theorem sum_at (i : S100000x129.Idx) : val_main_v31 (F := Ideal) x0 x1 x2 x3 i = A i + B i := by
  rw [val_main_v31_apply, hA, hB]; rfl

/-- The first argument minus the mean, at `(r, k)`: the centred row `r` at `k`. -/
theorem centred_at (r : Fin 100000) (k : Fin 128) :
    val_main_v38 (F := Ideal) x0 x1 x2 x3 (ix2 r k)
      = centred (fun k => x0 (ix2 r k)) (fun j => A (ix2 r j)) (fun j => B (ix2 r j)) k := by
  rw [val_main_v38_apply, val_main_v37_apply, val_main_v32_apply, idx_feat, val_main_v36_apply, val_main_v35_apply,
    val_main_v33_apply, idx_deg, val_main_v34_apply, val_main_cst_5_apply,
    sum_at x0 x1 x2 x3 A B hA hB, sum_at x0 x1 x2 x3 A B hA hB]
  rfl

/-- The row sum of squares that entry `(r, k)`'s scale is computed from: the squares of centred row `r`. -/
theorem squares_at (r : Fin 100000) (k : Fin 128) :
    (∑ j : Fin 128, val_main_v39 (F := Ideal) x0 x1 x2 x3 (idx_main_v40 (idx_main_v41 (idx_main_v47 (ix2 r k))) j))
      = ∑ j : Fin 128, centred (fun k => x0 (ix2 r k)) (fun j => A (ix2 r j)) (fun j => B (ix2 r j)) j
          * centred (fun k => x0 (ix2 r k)) (fun j => A (ix2 r j)) (fun j => B (ix2 r j)) j :=
  Finset.sum_congr rfl fun j _ => by
    rw [idx_sum, val_main_v39_apply, centred_at x0 x1 x2 x3 A B hA hB]; rfl

/-- The reference's result at `(r, k)` is the normalised row `r` at `k`. -/
theorem result_at (r : Fin 100000) (k : Fin 128) :
    val_main_v48 (F := Ideal) x0 x1 x2 x3 (ix2 r k)
      = normRow (fun k => x0 (ix2 r k)) (fun j => A (ix2 r j)) (fun j => B (ix2 r j)) k := by
  rw [val_main_v48_apply, val_main_v47_apply, val_main_v46_apply, val_main_v45_apply, val_main_v44_apply,
    val_main_cst_8_apply, val_main_v43_apply, val_main_v42_apply, val_main_cst_7_apply, val_main_v41_apply,
    val_main_v40_apply, val_main_cst_6_apply, squares_at x0 x1 x2 x3 A B hA hB, centred_at x0 x1 x2 x3 A B hA hB]
  unfold normRow
  simp only [Ideal.mulf_def, Ideal.addf_def, Ideal.hostDivf_def, Ideal.hostUnary_rsqrt_def, Ideal.ofBits_def,
    Ideal.ofBits_zero_f32, zero_add]

end Halves

/-- The reference's result is the row-wise normalisation of the first argument and the two halves. -/
theorem result_rows :
    val_main_v48 (F := Ideal) x0 x1 x2 x3
      = rowNormOf x0 (val_main_v29 (F := Ideal) x0 x1 x2 x3) (val_main_v30 (F := Ideal) x0 x1 x2 x3) := by
  funext i
  obtain ⟨r, k, rfl⟩ : ∃ (r : Fin 100000) (k : Fin 128), i = ix2 r k := ⟨i 0, i 1, eq_ix2 i⟩
  rw [rowNormOf_apply]
  exact result_at x0 x1 x2 x3 _ _ rfl rfl r k

end Cert.ReferenceIdeal.RefRows

end
-- ==== Proof.lean ====
/- The kernel and the reference compute, at the ideal instance, ONE function of their four arguments.

   Both programs begin with the same host operations: the first argument (100000 rows of 128 features) is stacked on
   itself and given a column of ones; its rows are gathered along the second index list, scaled by the edge values and
   scatter-added into 400000 clause rows along the first index list; the clause rows are gathered back along the first
   list, scaled again and scatter-added into 200000 literal rows along the second; and the result is split into its
   upper and lower halves `A` and `B`, each 100000 rows of 129 columns.

   From there the reference, on whole arrays, and the kernel, on blocks of 2000 rows over a grid of 50 points, do the
   same thing row by row: with `s = A + B`, the row's mean is `s k / max (s 128) 2` (the last column counts the degree),
   the centred row is `v k = x k - s k / max (s 128) 2`, and the result is `v k * rsqrt ((∑ j, v j * v j) / 128 + ε)`. Every
   literal (2, 0, 128, ε) is the same word on both sides and both divide by 128, so the two sides are the same
   composition of the same exact operations; no law of arithmetic beyond `0 + s = s` for the host sum's initial value is
   needed, and the inputs' finiteness is never used.

   The modules: RowNorm (the row function and its row locality), RefRows (the reference's tail read at an entry),
   BodyRows (the kernel body's block read at an entry), Head (the operand arrays the region finds are the reference's two
   halves), Blocks (from the 50 blocks to the array, and the kernel's run). The three frames are the generated ones; the
   idealisation rewrote nothing, so there is nothing to preserve. -/
import proofs.«174831_j15410342658642_1_alg».proof.Defs
import proofs.«174831_j15410342658642_1_alg».proof.Proof.Gen.Kernel
import proofs.«174831_j15410342658642_1_alg».proof.Proof.Gen.Kernel.Skeleton
import proofs.«174831_j15410342658642_1_alg».proof.Proof.Gen.Kernel.Launch
import proofs.«174831_j15410342658642_1_alg».proof.Proof.Gen.Kernel.Points
import proofs.«174831_j15410342658642_1_alg».proof.Proof.Gen.Kernel.Frame
import proofs.«174831_j15410342658642_1_alg».proof.Proof.Gen.KernelIdeal
import proofs.«174831_j15410342658642_1_alg».proof.Proof.Gen.KernelIdeal.Skeleton
import proofs.«174831_j15410342658642_1_alg».proof.Proof.Gen.KernelIdeal.Launch
import proofs.«174831_j15410342658642_1_alg».proof.Proof.Gen.KernelIdeal.Points
import proofs.«174831_j15410342658642_1_alg».proof.Proof.Gen.KernelIdeal.Frame
import proofs.«174831_j15410342658642_1_alg».proof.Proof.Gen.ReferenceIdeal
import proofs.«174831_j15410342658642_1_alg».proof.Proof.Gen.KernelIdeal.Value
import proofs.«174831_j15410342658642_1_alg».proof.Proof.Gen.ReferenceIdeal.Run
import proofs.«174831_j15410342658642_1_alg».proof.Proof.Gen.ReferenceIdeal.Read
import proofs.«174831_j15410342658642_1_alg».proof.Proof.Gen.Pre_finite_inputs
import proofs.«174831_j15410342658642_1_alg».proof.Proof.Blocks
import proofs.«174831_j15410342658642_1_alg».proof.Proof.RefRows
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From arguments that agree, the kernel's result array and the reference's are both the row-wise normalisation of the
    first argument and of the two halves of the same scattered array. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.ReferenceIdeal.RefRows.result_rows,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
